-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S400x10000 : Shape := ⟨2, ![400, 10000]⟩
abbrev S400x16 : Shape := ⟨2, ![400, 16]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S1x16, .f32⟩
  | .hbm, ⟨6, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S400x10000, .f32⟩
  | .local _ .vmem, ⟨4, _⟩ => ⟨S400x10000, .f32⟩
  | .local _ .vmem, ⟨5, _⟩ => ⟨S10000x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S16_S1x16 : S16.ShapeCasts S1x16
  inb_S400x10000_S400x10000_0_0 : ∀ a, (![0, 0] : Fin 2 → Nat) a + S400x10000.size a ≤ S400x10000.size a
  h_S400x10000 : 0 < S400x10000.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000x16, .f32⟩
  | .hbm, ⟨14, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.GcnSpec.lean ====
/-
  One graph-convolution layer, written as a function of its four arrays on the extended reals.

  The feature transform: support(k, n) = Σ_{j < 128} x(k, j) · W(j, n), for 10000 nodes and 16 output features.
  The layer:             out(i, n) = max( Σ_{k < 10000} adj(i, k) · support(k, n) + b(n), 0 ).

  The zero of the rectifier is kept as the float word 0x00000000 read at the ideal values: both programs spell it with
  that word, so it is never evaluated. A rectifier applied twice is the rectifier (`relu_relu`): the only law of the
  extended reals this certificate needs, and it holds at the infinities too, so no finiteness is used.
-/
import Idealize.ShloMosaic.PureOps.Ideal.Laws
import Idealize.ShloMosaic.Lib.ValueIdx

noncomputable section

namespace Cert.Gcn

open Idealize.ShloMosaic Idealize.ShloMosaic.ValueIdx

/-- The rectifier's zero: the f32 word of +0.0 at the ideal values. -/
abbrev zero : EReal := Ideal.ofBits .f32 0x00000000#32

/-- The feature transform x · W, entry by entry. -/
def support (x : (⟨2, ![10000, 128]⟩ : Shape).Idx → EReal) (W : (⟨2, ![128, 16]⟩ : Shape).Idx → EReal) :
    (⟨2, ![10000, 16]⟩ : Shape).Idx → EReal :=
  fun i => ∑ j : Fin 128, x (ix2 (i 0) j) * W (ix2 j (i 1))

/-- Aggregation over the adjacency rows, the bias added per output feature, then the rectifier. -/
def layer (adj : (⟨2, ![10000, 10000]⟩ : Shape).Idx → EReal) (s : (⟨2, ![10000, 16]⟩ : Shape).Idx → EReal)
    (b : (⟨1, ![16]⟩ : Shape).Idx → EReal) : (⟨2, ![10000, 16]⟩ : Shape).Idx → EReal :=
  fun i => max ((∑ k : Fin 10000, adj (ix2 (i 0) k) * s (ix2 k (i 1))) + b (ix1 (i 1))) zero

/-- The rectifier is idempotent: max(max(y, z), z) = max(y, z) in any linear order. -/
theorem relu_relu (y z : EReal) : max (max y z) z = max y z := max_eq_left (le_max_right y z)

end Cert.Gcn

end
-- ==== Proof.GcnReference.lean ====
/-
  The reference program computes the layer of GcnSpec.

  Its run ends at  max(max(adj · (x · W) + broadcast(b), 0), 0)  with both products the host's dot_general and the
  bias broadcast in two steps ([16] → [1,16] → [10000,16]). Read at an index (i, n): each dot_general is the sum over its
  one contraction index, the two broadcasts read b at n, and the second rectifier is absorbed by the first.
-/
import proofs.«158085_g25701084299798_cont_9to1_905_10_alg».proof.Proof.Gen.ReferenceIdeal.Read
import proofs.«158085_g25701084299798_cont_9to1_905_10_alg».proof.Proof.GcnSpec

noncomputable section

namespace Cert.Gcn.Reference

open Cert.ReferenceIdeal Cert.ReferenceIdeal.Read Idealize.ShloMosaic Idealize.ShloMosaic.ValueIdx

/-- The first product's operand indices at (i, ·) and contraction index k are (i₀, k) and (k, i₁). -/
theorem lidx0 (i : S10000x16.Idx) (k : Fin 128) : lidx_main_v0 i k = ix2 (i 0) k :=
  funext fun a => by match a with | ⟨0, _⟩ => rfl | ⟨1, _⟩ => rfl
theorem ridx0 (i : S10000x16.Idx) (k : Fin 128) : ridx_main_v0 i k = ix2 k (i 1) :=
  funext fun a => by match a with | ⟨0, _⟩ => rfl | ⟨1, _⟩ => rfl
/-- Likewise for the second product. -/
theorem lidx1 (i : S10000x16.Idx) (k : Fin 10000) : lidx_main_v1 i k = ix2 (i 0) k :=
  funext fun a => by match a with | ⟨0, _⟩ => rfl | ⟨1, _⟩ => rfl
theorem ridx1 (i : S10000x16.Idx) (k : Fin 10000) : ridx_main_v1 i k = ix2 k (i 1) :=
  funext fun a => by match a with | ⟨0, _⟩ => rfl | ⟨1, _⟩ => rfl
/-- The two broadcasts of the bias read it at the column. -/
theorem bidx (i : S10000x16.Idx) : idx_main_v2 (idx_main_v3 i) = ix1 (i 1) :=
  funext fun a => by match a with | ⟨0, _⟩ => rfl

/-- The reference's first product is the feature transform. -/
theorem support_eq (x0 : (⟨S10000x128, .f32⟩ : BufTy).Contents (Elt Ideal)) (x2 : (⟨S128x16, .f32⟩ : BufTy).Contents (Elt Ideal)) :
    val_main_v0 (F := Ideal) x0 x2 = support x0 x2 :=
  funext fun i => (val_main_v0_apply x0 x2 i).trans
    (Finset.sum_congr rfl fun k _ => by rw [lidx0, ridx0]; rfl)

/-- The reference's result is the layer of its four arguments. -/
theorem result_eq (x0 : (⟨S10000x128, .f32⟩ : BufTy).Contents (Elt Ideal)) (x1 : (⟨S10000x10000, .f32⟩ : BufTy).Contents (Elt Ideal))
    (x2 : (⟨S128x16, .f32⟩ : BufTy).Contents (Elt Ideal)) (x3 : (⟨S16, .f32⟩ : BufTy).Contents (Elt Ideal)) :
    val_main_v6 (F := Ideal) x0 x1 x2 x3 = layer x1 (support x0 x2) x3 := by
  funext i
  rw [val_main_v6_apply, val_main_v5_apply, val_main_v4_apply, val_main_v1_apply, val_main_v3_apply, val_main_v2_apply,
    val_main_call0_v0_apply, val_main_call0_cst_apply, val_main_call1_v0_apply, val_main_call1_cst_apply, support_eq, bidx]
  refine (relu_relu _ _).trans ?_
  refine congrArg (fun s => max (s + x3 (ix1 (i 1))) zero) (Finset.sum_congr rfl fun k _ => ?_)
  rw [lidx1, ridx1]; rfl

end Cert.Gcn.Reference

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.GcnBlocks.lean ====
/-
  What each kernel body stores, read at an index, at the ideal values.

  The first kernel stores the product of its two whole operands into a zero accumulator: at (p, q) the sum over
  j < 128 of x(p, j) · W(j, q).
  The second kernel, on a slab of 400 adjacency rows, stores  max(slab · support + bias row, 0): at (p, q) the sum over
  k < 10000 of slab(p, k) · support(k, q), plus the bias row's entry (0, q), against the zero word. The two shape casts
  in its text are casts of a shape to itself.
-/
import proofs.«158085_g25701084299798_cont_9to1_905_10_alg».proof.Proof.Gen.KernelIdeal.Skeleton
import proofs.«158085_g25701084299798_cont_9to1_905_10_alg».proof.Proof.LibPlainDot
import proofs.«158085_g25701084299798_cont_9to1_905_10_alg».proof.Proof.GcnSpec
import Idealize.ShloMosaic.Lib.ValueLayout

noncomputable section

namespace Cert.Gcn.Blocks

open Cert.KernelIdeal Cert.KernelIdeal.Gen Idealize.ShloMosaic Idealize.ShloMosaic.ValueIdx

/-- The first kernel's stored value at an index: one entry of x · W. -/
theorem support_payload (x0 : FVec Ideal S10000x128 .f32) (x1 : FVec Ideal S128x16 .f32) (j : S10000x16.Idx) :
    k0_pay1 (F := Ideal) x0 x1 j = ∑ k : Fin 128, x0 (ix2 (j 0) k) * x1 (ix2 k (j 1)) := by
  unfold k0_pay1
  exact Cert.LibPlainDot.matmul_plain 10000 128 16 none x0 x1 j

/-- The second kernel's stored value at (p, q): the slab row times the support column, plus the bias, rectified. -/
theorem layer_payload (x0 : FVec Ideal S400x10000 .f32) (x1 : FVec Ideal S10000x16 .f32) (x2 : FVec Ideal S1x16 .f32)
    (p : Fin 400) (q : Fin 16) :
    k1_pay1 (F := Ideal) x0 x1 x2 (ix2 p q)
      = max ((∑ k : Fin 10000, x0 (ix2 p k) * x1 (ix2 k q)) + x2 (ix2 (0 : Fin 1) q)) zero := by
  unfold k1_pay1
  refine congrArg₂ max (congrArg₂ (· + ·) ?_ ?_) rfl
  · rw [shapeCast_self]
    exact Cert.LibPlainDot.matmul_plain 400 10000 16 none x0 x1 (ix2 p q)
  · rw [shapeCast_self]
    exact broadcastTo_1b_ab_apply x2 _ p q

end Cert.Gcn.Blocks

end
-- ==== Proof.GcnArrays.lean ====
/-
  From blocks to arrays: what each of the two kernel launches leaves in its output array, as ONE function of the
  arrays the launch finds at its entry (a parameter `V` here: the run instantiates it per launch).

  The first launch has no grid: its one point reads the two whole operands and writes the whole result, so the result
  array ends at the feature transform of the operands.
  The second launch has 25 points. Point t reads rows 400·t … 400·t + 399 of the adjacency, the whole support and the
  whole bias row, and writes rows 400·t … 400·t + 399 of the result. Each such block is that block of one function of the
  arrays (`layerRows`), and the 25 blocks cover the 10000 rows (row r lies in block r / 400), so the result array ends
  at that function.
-/
import proofs.«158085_g25701084299798_cont_9to1_905_10_alg».proof.Proof.Gen.KernelIdeal.Frame
import proofs.«158085_g25701084299798_cont_9to1_905_10_alg».proof.Proof.GcnBlocks
import Idealize.ShloMosaic.Lib.Pipeline.Value

noncomputable section

namespace Cert.Gcn.Arrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- A function of an index takes equal values at indices with equal coordinates. -/
theorem at_coords {S : Shape} {α : Type} (f : S.Idx → α) {a b : S.Idx} (h : ∀ d, (a d).val = (b d).val) : f a = f b :=
  congrArg f (funext fun d => Fin.ext (h d))

/-! ## The launch without a grid -/

/-- Its blocks are the whole arrays: an entry of a block is the array's entry with the same coordinates. -/
theorem x_block (c : Dev nD) (t : Fin cfg0.N) (y k : S10000x128.Idx) (h0 : (k 0).val = (y 0).val) (h1 : (k 1).val = (y 1).val) :
    (iblk0 V c 0 t : Vec Ideal S10000x128 .f32) y = (V c main_arg0 : S10000x128.Idx → EReal) k := by
  unfold iblk0
  rw [View.read_apply]
  show V c main_arg0 _ = V c main_arg0 _
  refine at_coords _ fun a => ?_
  match a with
  | ⟨0, _⟩ => show 0 * 10000 + 1 * (y 0).val = (k 0).val; omega
  | ⟨1, _⟩ => show 0 * 128 + 1 * (y 1).val = (k 1).val; omega

theorem w_block (c : Dev nD) (t : Fin cfg0.N) (y k : S128x16.Idx) (h0 : (k 0).val = (y 0).val) (h1 : (k 1).val = (y 1).val) :
    (iblk0 V c 1 t : Vec Ideal S128x16 .f32) y = (V c main_arg2 : S128x16.Idx → EReal) k := by
  unfold iblk0
  rw [View.read_apply]
  show V c main_arg2 _ = V c main_arg2 _
  refine at_coords _ fun a => ?_
  match a with
  | ⟨0, _⟩ => show 0 * 128 + 1 * (y 0).val = (k 0).val; omega
  | ⟨1, _⟩ => show 0 * 16 + 1 * (y 1).val = (k 1).val; omega

/-- What the one point writes back is the whole feature transform of the operands as the launch finds them. -/
theorem support_flushed (c : Dev nD) (t : Fin cfg0.N) :
    (dat0 V c).flushed 2 t
      = ((cfg0.win 2).blk t).view.read (Elt Ideal) (support (V c main_arg0) (V c main_arg2)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x16) offsets_zero]
  funext j
  rw [View.read_apply]
  show k0_pay1 (F := Ideal) (iblk0 V c 0 t) (iblk0 V c 1 t) ((win0 2).xinj (grid0.coords t) j)
    = support (V c main_arg0) (V c main_arg2) (((View.whole main_v0).slice ((win0 2).rect t)).emb j)
  refine (Blocks.support_payload (iblk0 V c 0 t) (iblk0 V c 1 t) _).trans ?_
  unfold support
  refine Finset.sum_congr rfl fun k _ => ?_
  refine congrArg₂ (· * ·) (x_block V c t _ _ ?_ ?_) (w_block V c t _ _ ?_ ?_)
  · show 0 * 10000 + 1 * (j 0).val = (j 0).val; omega
  · rfl
  · rfl
  · show 0 * 16 + 1 * (j 1).val = (j 1).val; omega

/-- The one block is the whole result array. -/
theorem support_cover (i : S10000x16.Idx) :
    ∃ t : Fin cfg0.N, (cfg0.win 2).flush t = true ∧ i ∈ ((cfg0.win 2).blk t).view.set := by
  refine ⟨t0_0, flush0_2 t0_0, ?_⟩
  show i ∈ ((View.whole main_v0).slice (win0_2.rect t0_0)).set
  rw [View.set_slice_whole, Rect.mem_set_unit]
  intro a
  have h0 : (i 0).val < 10000 := idx2_lt0 i
  have h1 : (i 1).val < 16 := idx2_lt1 i
  match a with
  | ⟨0, _⟩ => show 0 * 10000 ≤ (i 0).val ∧ (i 0).val < 0 * 10000 + 10000; omega
  | ⟨1, _⟩ => show 0 * 16 ≤ (i 1).val ∧ (i 1).val < 0 * 16 + 16; omega

/-- After the first launch its result array is the feature transform of its two operands. -/
theorem support_final (c : Dev nD) : (dat0 V c).arrAt 2 cfg0.N = support (V c main_arg0) (V c main_arg2) :=
  (dat0 V c).arrAt_eq_of_cover 2 (support (V c main_arg0) (V c main_arg2)) (fun t _ => support_flushed V c t) support_cover

/-! ## The launch over 25 row slabs -/

/-- The printed index maps over the grid: the adjacency and the result move with the point along the rows; the support
    and the bias row stay. -/
theorem points : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the adjacency slab at point t is entry (400·t + p, k) of the adjacency. -/
theorem adj_block (c : Dev nD) (t : Fin cfg1.N) (y : S400x10000.Idx) (k : S10000x10000.Idx)
    (h0 : (k 0).val = 400 * t.val + (y 0).val) (h1 : (k 1).val = (y 1).val) :
    (iblk1 V c 0 t : Vec Ideal S400x10000 .f32) y = (V c main_arg1 : S10000x10000.Idx → EReal) k := by
  obtain ⟨e0, e1, -⟩ := points t
  unfold iblk1
  rw [View.read_apply]
  show V c main_arg1 _ = V c main_arg1 _
  refine at_coords _ fun a => ?_
  match a with
  | ⟨0, _⟩ => show win1_0.index t (0 : Fin 2) * 400 + 1 * (y 0).val = (k 0).val; rw [e0, h0]; omega
  | ⟨1, _⟩ => show win1_0.index t (1 : Fin 2) * 10000 + 1 * (y 1).val = (k 1).val; rw [e1, h1]; omega

/-- The support block at every point is the whole support. -/
theorem s_block (c : Dev nD) (t : Fin cfg1.N) (y k : S10000x16.Idx) (h0 : (k 0).val = (y 0).val) (h1 : (k 1).val = (y 1).val) :
    (iblk1 V c 1 t : Vec Ideal S10000x16 .f32) y = (V c main_v0 : S10000x16.Idx → EReal) k := by
  obtain ⟨-, -, e0, e1, -⟩ := points t
  unfold iblk1
  rw [View.read_apply]
  show V c main_v0 _ = V c main_v0 _
  refine at_coords _ fun a => ?_
  match a with
  | ⟨0, _⟩ => show win1_1.index t (0 : Fin 2) * 10000 + 1 * (y 0).val = (k 0).val; rw [e0, h0]; omega
  | ⟨1, _⟩ => show win1_1.index t (1 : Fin 2) * 16 + 1 * (y 1).val = (k 1).val; rw [e1, h1]; omega

/-- The bias block at every point is the whole bias row. -/
theorem b_block (c : Dev nD) (t : Fin cfg1.N) (y k : S1x16.Idx) (h0 : (k 0).val = (y 0).val) (h1 : (k 1).val = (y 1).val) :
    (iblk1 V c 2 t : Vec Ideal S1x16 .f32) y = (V c main_v1 : S1x16.Idx → EReal) k := by
  obtain ⟨-, -, -, -, e0, e1, -⟩ := points t
  unfold iblk1
  rw [View.read_apply]
  show V c main_v1 _ = V c main_v1 _
  refine at_coords _ fun a => ?_
  match a with
  | ⟨0, _⟩ => show win1_2.index t (0 : Fin 2) * 1 + 1 * (y 0).val = (k 0).val; rw [e0, h0]; omega
  | ⟨1, _⟩ => show win1_2.index t (1 : Fin 2) * 16 + 1 * (y 1).val = (k 1).val; rw [e1, h1]; omega

/-- The second launch's result as one function of the adjacency, the support and the bias ROW (a [1,16] array). -/
def layerRows (adj : S10000x10000.Idx → EReal) (s : S10000x16.Idx → EReal) (b1 : S1x16.Idx → EReal) : S10000x16.Idx → EReal :=
  fun i => max ((∑ k : Fin 10000, adj (ix2 (i 0) k) * s (ix2 k (i 1))) + b1 (ix2 (0 : Fin 1) (i 1))) zero

/-- Entry (p, q) of what point t stores is entry (400·t + p, q) of that function. -/
theorem layer_entry (c : Dev nD) (t : Fin cfg1.N) (p : Fin 400) (q : Fin 16) (i : S10000x16.Idx)
    (h0 : (i 0).val = 400 * t.val + p.val) (h1 : (i 1).val = q.val) :
    k1_pay1 (F := Ideal) (iblk1 V c 0 t) (iblk1 V c 1 t) (iblk1 V c 2 t) (ix2 p q)
      = layerRows (V c main_arg1) (V c main_v0) (V c main_v1) i := by
  refine (Blocks.layer_payload (iblk1 V c 0 t) (iblk1 V c 1 t) (iblk1 V c 2 t) p q).trans ?_
  unfold layerRows
  refine congrArg₂ max (congrArg₂ (· + ·) (Finset.sum_congr rfl fun k _ => ?_) ?_) rfl
  · exact congrArg₂ (· * ·) (adj_block V c t (ix2 p k) (ix2 (i 0) k) h0 rfl) (s_block V c t (ix2 k q) (ix2 k (i 1)) rfl h1)
  · exact b_block V c t (ix2 (0 : Fin 1) q) (ix2 (0 : Fin 1) (i 1)) rfl h1

/-- What point t writes back is block t of `layerRows` of the arrays as the launch finds them. -/
theorem layer_flushed (c : Dev nD) (t : Fin cfg1.N) :
    (dat1 V c).flushed 3 t
      = ((cfg1.win 3).blk t).view.read (Elt Ideal) (layerRows (V c main_arg1) (V c main_v0) (V c main_v1)) := by
  show (cfg1.win 3).cut (grid1.coords t) ((dat1 V c).after 3 t) = _
  rw [after1_3]
  unfold out1_3
  rw [View.canon_unit_zero offsets_zero]
  simp only [View.ld_unit_zero (S := S400x10000) offsets_zero, View.ld_unit_zero (S := S10000x16) offsets_zero,
    View.ld_unit_zero (S := S1x16) offsets_zero]
  obtain ⟨-, -, -, -, -, -, e0, e1⟩ := points t
  funext j
  rw [View.read_apply]
  show k1_pay1 (F := Ideal) (iblk1 V c 0 t) (iblk1 V c 1 t) (iblk1 V c 2 t) ((win1 3).xinj (grid1.coords t) j)
    = layerRows (V c main_arg1) (V c main_v0) (V c main_v1) (((View.whole main_v2).slice ((win1 3).rect t)).emb j)
  have hp : (j 0).val < 400 := (j 0).isLt
  have hq : (j 1).val < 16 := (j 1).isLt
  refine (at_coords _ (b := ix2 (⟨(j 0).val, hp⟩ : Fin 400) (⟨(j 1).val, hq⟩ : Fin 16)) fun a => ?_).trans
    (layer_entry V c t ⟨(j 0).val, hp⟩ ⟨(j 1).val, hq⟩ _ ?_ ?_)
  · match a with
    | ⟨0, _⟩ => rfl
    | ⟨1, _⟩ => rfl
  · show win1_3.index t (0 : Fin 2) * 400 + 1 * (j 0).val = 400 * t.val + (j 0).val; rw [e0]; omega
  · show win1_3.index t (1 : Fin 2) * 16 + 1 * (j 1).val = (j 1).val; rw [e1]; omega

/-- Row r of the result lies in the block of point r / 400. -/
theorem layer_cover (i : S10000x16.Idx) :
    ∃ t : Fin cfg1.N, (cfg1.win 3).flush t = true ∧ i ∈ ((cfg1.win 3).blk t).view.set := by
  have h0 : (i 0).val < 10000 := idx2_lt0 i
  have h1 : (i 1).val < 16 := idx2_lt1 i
  have hN : cfg1.N = 25 := N_1
  let t : Fin cfg1.N := ⟨(i 0).val / 400, by rw [hN]; omega⟩
  obtain ⟨-, -, -, -, -, -, e0, e1⟩ := points t
  refine ⟨t, flush1_3 t, ?_⟩
  show i ∈ ((View.whole main_v2).slice (win1_3.rect t)).set
  rw [View.set_slice_whole, Rect.mem_set_unit]
  intro a
  match a with
  | ⟨0, _⟩ =>
    show win1_3.index t (0 : Fin 2) * 400 ≤ (i 0).val ∧ (i 0).val < win1_3.index t (0 : Fin 2) * 400 + 400
    rw [e0]; show (i 0).val / 400 * 400 ≤ (i 0).val ∧ (i 0).val < (i 0).val / 400 * 400 + 400; omega
  | ⟨1, _⟩ =>
    show win1_3.index t (1 : Fin 2) * 16 ≤ (i 1).val ∧ (i 1).val < win1_3.index t (1 : Fin 2) * 16 + 16
    rw [e1]; omega

/-- After the second launch its result array is `layerRows` of the adjacency, the support and the bias row it found. -/
theorem layer_final (c : Dev nD) :
    (dat1 V c).arrAt 3 cfg1.N = layerRows (V c main_arg1) (V c main_v0) (V c main_v1) :=
  (dat1 V c).arrAt_eq_of_cover 3 (layerRows (V c main_arg1) (V c main_v0) (V c main_v1)) (fun t _ => layer_flushed V c t) layer_cover

/-- With the bias row a vector of 16 entries cast to [1, 16], this is the layer of GcnSpec. -/
theorem layerRows_cast (adj : S10000x10000.Idx → EReal) (s : S10000x16.Idx → EReal) (b : S16.Idx → EReal)
    (h : S16.ShapeCasts S1x16) : layerRows adj s (shapeCast S1x16 b h) = layer adj s b := by
  funext i
  unfold layerRows layer
  rw [shapeCast_a_1a_apply b h (0 : Fin 1) (i 1)]

end Cert.Gcn.Arrays

end
-- ==== Proof.GcnLaunch.lean ====
/-
  The idealized kernel program's run, with the result array read at the end.

  The program is two kernel launches with one host reshape between them. Its run is assembled from three segments
  (launch, reshape, launch), each entered from the buffer contents the previous one leaves; the contents after the last
  segment are `W3`. Every unscoped buffer of the final state holds what `W3` says, so the result buffer holds
  `W3` at the result, and the four argument buffers hold what they held at the start.
-/
import proofs.«158085_g25701084299798_cont_9to1_905_10_alg».proof.Proof.Gen.KernelIdeal.Frame

set_option maxRecDepth 16384

noncomputable section

namespace Cert.Gcn.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds the
    contents after the last segment, and the arguments are unchanged. -/
theorem run_exit : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Gcn.Launch

end
-- ==== Proof.GcnValue.lean ====
/-
  The idealized kernel program computes the layer of GcnSpec.

  The contents after the last segment, at the result buffer, are what the second launch leaves in its result array:
  `layerRows` of the adjacency, the support and the bias row as that launch finds them. Walking back through the
  segments: the adjacency is as launched (nothing before writes it); the support is what the first launch left in its
  result array, the feature transform of x and W as launched; the bias row is the host's reshape of b, a vector of 16
  entries, to [1, 16]. So the result is the layer of the four arguments.
-/
import proofs.«158085_g25701084299798_cont_9to1_905_10_alg».proof.Proof.GcnArrays
import proofs.«158085_g25701084299798_cont_9to1_905_10_alg».proof.Proof.GcnLaunch
import Idealize.ShloMosaic.Lib.StableHlo.Run

noncomputable section

namespace Cert.Gcn.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The second launch finds the adjacency as launched. -/
theorem entry_adj (c : Dev nD) : V2 m ρ c main_arg1 = m ((c : Thread nD τ).loc main_arg1) := by
  show StableHlo.after hostOps1 (W1 m ρ c) (Proc.devRef .tc main_arg1) = _
  after_results
  exact W1_of_ne m ρ c main_arg1 (by decide)

/-- It finds, as its second operand, the feature transform of x and W as launched. -/
theorem entry_support (c : Dev nD) :
    V2 m ρ c main_v0 = support (m ((c : Thread nD τ).loc main_arg0)) (m ((c : Thread nD τ).loc main_arg2)) := by
  show StableHlo.after hostOps1 (W1 m ρ c) (Proc.devRef .tc main_v0) = _
  after_results
  exact (W1_arr m ρ c 2).trans (Arrays.support_final (V0 m ρ) c)

/-- It finds, as its third operand, b cast to a row. -/
theorem entry_bias (c : Dev nD) :
    V2 m ρ c main_v1 = shapeCast S1x16 (m ((c : Thread nD τ).loc main_arg3)) shapeCasts_S16_S1x16 := by
  show StableHlo.after hostOps1 (W1 m ρ c) (Proc.devRef .tc main_v1) = _
  after_results
  rw [W1_of_ne m ρ c main_arg3 (by decide)]
  rfl

/-- The result buffer's contents after the last segment: the layer of the four arguments. -/
theorem result_eq (c : Dev nD) :
    W3 m ρ c (Proc.devRef .tc main_v2)
      = layer (m ((c : Thread nD τ).loc main_arg1))
          (support (m ((c : Thread nD τ).loc main_arg0)) (m ((c : Thread nD τ).loc main_arg2)))
          (m ((c : Thread nD τ).loc main_arg3)) := by
  refine (W3_arr m ρ c 3).trans ((Arrays.layer_final (V2 m ρ) c).trans ?_)
  rw [entry_adj m ρ c, entry_support m ρ c, entry_bias m ρ c]
  exact Arrays.layerRows_cast _ _ _ _

/-- The run: every weakly fair execution terminates with the result at the layer of the arguments, the arguments unchanged. -/
theorem run : θ_run defs (onTc (τ := τ) (main (F := Ideal))) ⟨m, fun _ => 0, ρ⟩ (fun r => ∀ c : Dev nD,
      r.2.mem ((c.tc : Thread nD τ).loc main_v2)
        = layer (m ((c : Thread nD τ).loc main_arg1))
            (support (m ((c : Thread nD τ).loc main_arg0)) (m ((c : Thread nD τ).loc main_arg2)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Launch.run_exit m ρ)

end Cert.Gcn.Value

end
-- ==== Proof.lean ====
/-
  One graph-convolution layer: a two-launch kernel program against its plain reference, equal on the extended reals.

  Kernel: a first launch computes support = x · W (10000×128 by 128×16) in one point; the host reshapes the bias b to a
  row; a second launch, over 25 slabs of 400 adjacency rows, stores  max(slab · support + bias row, 0).
  Reference:  max(max(adj · (x · W) + b, 0), 0)  with both products the host's dot_general.

  At the ideal values both are, at (i, n),  max( Σ_k adj(i, k) · (Σ_j x(k, j) · W(j, n)) + b(n), 0 ):  the sums are
  grouped alike on both sides (the inner product is formed first in both), a matmul into a zero accumulator is the plain
  sum, and the reference's second rectifier is absorbed by its first (max is idempotent). No law that fails at an infinity
  is used, so the precondition (finite inputs) is never opened.

  The parts: GcnSpec (the layer as a function of the four arrays), GcnReference (the reference's run is that function),
  GcnBlocks (what each kernel body stores, at an index), GcnArrays (each launch's result array as one function of what
  the launch finds), GcnLaunch (the program's run with the result buffer read at the end), GcnValue (the result is the
  layer of the arguments). The three frames are the generated ones; the idealization rewrote nothing.
-/
import proofs.«158085_g25701084299798_cont_9to1_905_10_alg».proof.Defs
import proofs.«158085_g25701084299798_cont_9to1_905_10_alg».proof.Proof.Gen.Kernel
import proofs.«158085_g25701084299798_cont_9to1_905_10_alg».proof.Proof.Gen.Kernel.Skeleton
import proofs.«158085_g25701084299798_cont_9to1_905_10_alg».proof.Proof.Gen.Kernel.Launch
import proofs.«158085_g25701084299798_cont_9to1_905_10_alg».proof.Proof.Gen.Kernel.Points
import proofs.«158085_g25701084299798_cont_9to1_905_10_alg».proof.Proof.Gen.Kernel.Frame
import proofs.«158085_g25701084299798_cont_9to1_905_10_alg».proof.Proof.Gen.KernelIdeal
import proofs.«158085_g25701084299798_cont_9to1_905_10_alg».proof.Proof.Gen.KernelIdeal.Skeleton
import proofs.«158085_g25701084299798_cont_9to1_905_10_alg».proof.Proof.Gen.KernelIdeal.Launch
import proofs.«158085_g25701084299798_cont_9to1_905_10_alg».proof.Proof.Gen.KernelIdeal.Points
import proofs.«158085_g25701084299798_cont_9to1_905_10_alg».proof.Proof.Gen.KernelIdeal.Frame
import proofs.«158085_g25701084299798_cont_9to1_905_10_alg».proof.Proof.Gen.ReferenceIdeal
import proofs.«158085_g25701084299798_cont_9to1_905_10_alg».proof.Proof.Gen.Pre_finite_inputs
import proofs.«158085_g25701084299798_cont_9to1_905_10_alg».proof.Proof.Gen.ReferenceIdeal.Run
import proofs.«158085_g25701084299798_cont_9to1_905_10_alg».proof.Proof.Gen.ReferenceIdeal.Read
import proofs.«158085_g25701084299798_cont_9to1_905_10_alg».proof.Proof.GcnReference
import proofs.«158085_g25701084299798_cont_9to1_905_10_alg».proof.Proof.GcnValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the layer of those arguments in their
    result buffers. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg1))
      (Cert.Gcn.support (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)),
    Cert.Gcn.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Gcn.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
